-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S3072x1024 .f32) (main_arg2 : FVec F S1024x1024 .f32) (main_arg3 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S3072 : Shape := ⟨1, ![3072]⟩
abbrev S16384x1024 : Shape := ⟨2, ![16384, 1024]⟩
abbrev S_ : Shape := ⟨0, ![]⟩
abbrev S3072x1 : Shape := ⟨2, ![3072, 1]⟩
abbrev S1x1024 : Shape := ⟨2, ![1, 1024]⟩
abbrev S512x1024 : Shape := ⟨2, ![512, 1024]⟩
abbrev S512x3072 : Shape := ⟨2, ![512, 3072]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 18
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072, .i32⟩
  | .hbm, ⟨5, _⟩ => ⟨S3072, .i1⟩
  | .hbm, ⟨6, _⟩ => ⟨S16384x1024, .f32⟩
  | .hbm, ⟨7, _⟩ => ⟨S_, .i32⟩
  | .hbm, ⟨8, _⟩ => ⟨S3072, .i32⟩
  | .hbm, ⟨9, _⟩ => ⟨S3072, .i32⟩
  | .hbm, ⟨10, _⟩ => ⟨S3072, .i32⟩
  | .hbm, ⟨11, _⟩ => ⟨S3072x1, .i32⟩
  | .hbm, ⟨12, _⟩ => ⟨S3072x1024, .f32⟩
  | .hbm, ⟨13, _⟩ => ⟨S3072x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .hbm, ⟨17, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1024x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x1024_S16384x1024 : S8x2048x1024.ShapeCasts S16384x1024
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S8x2048x1024 : S16384x1024.ShapeCasts S8x2048x1024
  gather_S3072x1024_S3072x1_S3072x1024_1_0_n_n_0_1_11024_wf : GatherDims.WF S3072x1024 S3072x1 S3072x1024 [1] [0] [] [0] [] 1 ![1, 1024]
  dot_S512x1024_S3072x1024_S512x3072_1_1_0_0_n_n_wf : DotDims.WF S512x1024 S3072x1024 S512x3072 [1] [1] [0] [0] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S1024x1024 : Shape := ⟨2, ![1024, 1024]⟩
abbrev S1024 : Shape := ⟨1, ![1024]⟩
abbrev S8x2048x3072 : Shape := ⟨3, ![8, 2048, 3072]⟩
abbrev S8x2048x16x192 : Shape := ⟨4, ![8, 2048, 16, 192]⟩
abbrev S8x2048x16x64 : Shape := ⟨4, ![8, 2048, 16, 64]⟩
abbrev S8x2048x16x16 : Shape := ⟨4, ![8, 2048, 16, 16]⟩
abbrev S_ : Shape := ⟨0, ![]⟩
abbrev S8x2048x16 : Shape := ⟨3, ![8, 2048, 16]⟩
abbrev S8x2048x16x1 : Shape := ⟨4, ![8, 2048, 16, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x2048x3072, .f32⟩
  | .hbm, ⟨5, _⟩ => ⟨S8x2048x16x192, .f32⟩
  | .hbm, ⟨6, _⟩ => ⟨S8x2048x16x64, .f32⟩
  | .hbm, ⟨7, _⟩ => ⟨S8x2048x16x64, .f32⟩
  | .hbm, ⟨8, _⟩ => ⟨S8x2048x16x64, .f32⟩
  | .hbm, ⟨9, _⟩ => ⟨S8x2048x16x16, .f32⟩
  | .hbm, ⟨10, _⟩ => ⟨S_, .f32⟩
  | .hbm, ⟨11, _⟩ => ⟨S8x2048x16x16, .f32⟩
  | .hbm, ⟨12, _⟩ => ⟨S8x2048x16x16, .f32⟩
  | .hbm, ⟨13, _⟩ => ⟨S_, .f32⟩
  | .hbm, ⟨14, _⟩ => ⟨S8x2048x16, .f32⟩
  | .hbm, ⟨15, _⟩ => ⟨S_, .f32⟩
  | .hbm, ⟨16, _⟩ => ⟨S8x2048x16, .f32⟩
  | .hbm, ⟨17, _⟩ => ⟨S8x2048x16, .f32⟩
  | .hbm, ⟨18, _⟩ => ⟨S8x2048x16x1, .f32⟩
  | .hbm, ⟨19, _⟩ => ⟨S8x2048x16x16, .f32⟩
  | .hbm, ⟨20, _⟩ => ⟨S8x2048x16x16, .f32⟩
  | .hbm, ⟨21, _⟩ => ⟨S8x2048x16x16, .f32⟩
  | .hbm, ⟨22, _⟩ => ⟨S_, .f32⟩
  | .hbm, ⟨23, _⟩ => ⟨S8x2048x16, .f32⟩
  | .hbm, ⟨24, _⟩ => ⟨S8x2048x16x1, .f32⟩
  | .hbm, ⟨25, _⟩ => ⟨S8x2048x16x16, .f32⟩
  | .hbm, ⟨26, _⟩ => ⟨S8x2048x16x16, .f32⟩
  | .hbm, ⟨27, _⟩ => ⟨S8x2048x16x64, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S8x2048x3072_S8x2048x16x192 : S8x2048x3072.ShapeCasts S8x2048x16x192
  slices_S8x2048x16x192_S8x2048x16x64_0_0_0_0 : S8x2048x16x192.Slices ![0, 0, 0, 0] S8x2048x16x64
  slices_S8x2048x16x192_S8x2048x16x64_0_0_0_64 : S8x2048x16x192.Slices ![0, 0, 0, 64] S8x2048x16x64
  slices_S8x2048x16x192_S8x2048x16x64_0_0_0_128 : S8x2048x16x192.Slices ![0, 0, 0, 128] S8x2048x16x64
  bcast_S_S8x2048x16x16 : S_.BroadcastsInDim S8x2048x16x16 (![] : Fin 0 → Fin S8x2048x16x16.rank)
  reducesTo_S8x2048x16x16_S8x2048x16_d3 : S8x2048x16x16.ReducesTo [3] S8x2048x16
  h_S_ : 0 < S_.numel
  bcast_S_S8x2048x16 : S_.BroadcastsInDim S8x2048x16 (![] : Fin 0 → Fin S8x2048x16.rank)
  bcast_S8x2048x16_S8x2048x16x1_0_1_2 : S8x2048x16.BroadcastsInDim S8x2048x16x1 (![0, 1, 2] : Fin 3 → Fin S8x2048x16x1.rank)
  bcast_S8x2048x16x1_S8x2048x16x16_0_1_2_3 : S8x2048x16x1.BroadcastsInDim S8x2048x16x16 (![0, 1, 2, 3] : Fin 4 → Fin S8x2048x16x16.rank)
  shapeCasts_S8x2048x16x64_S8x2048x1024 : S8x2048x16x64.ShapeCasts S8x2048x1024
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S3072x1024_S8x2048x3072_2_1_01_0_n_n_wf : DotDims.WF S8x2048x1024 S3072x1024 S8x2048x3072 [2] [1] [0, 1] [0] [] []
  dot_S8x2048x16x64_S8x2048x16x64_S8x2048x16x16_3_3_2_2_01_01_wf : DotDims.WF S8x2048x16x64 S8x2048x16x64 S8x2048x16x16 [3] [3] [2] [2] [0, 1] [0, 1]
  dot_S8x2048x16x16_S8x2048x16x64_S8x2048x16x64_3_2_2_3_01_01_wf : DotDims.WF S8x2048x16x16 S8x2048x16x64 S8x2048x16x64 [3] [2] [2] [3] [0, 1] [0, 1]
  dot_S8x2048x1024_S1024x1024_S8x2048x1024_2_1_01_0_n_n_wf : DotDims.WF S8x2048x1024 S1024x1024 S8x2048x1024 [2] [1] [0, 1] [0] [] []

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x16x64_S8x2048x16x64_S8x2048x16x16_3_3_2_2_01_01 : DotDims S8x2048x16x64 S8x2048x16x64 S8x2048x16x16 where
  lhsContracting := [3]
  rhsContracting := [3]
  lhsNonContracting := [2]
  rhsNonContracting := [2]
  lhsBatch := [0, 1]
  rhsBatch := [0, 1]
  wf := dot_S8x2048x16x64_S8x2048x16x64_S8x2048x16x16_3_3_2_2_01_01_wf
def dot_S8x2048x16x16_S8x2048x16x64_S8x2048x16x64_3_2_2_3_01_01 : DotDims S8x2048x16x16 S8x2048x16x64 S8x2048x16x64 where
  lhsContracting := [3]
  rhsContracting := [2]
  lhsNonContracting := [2]
  rhsNonContracting := [3]
  lhsBatch := [0, 1]
  rhsBatch := [0, 1]
  wf := dot_S8x2048x16x16_S8x2048x16x64_S8x2048x16x64_3_2_2_3_01_01_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.HeadMix.lean ====
/-
  One token row through the fused block, as mathematics.

  A row `xr` of 1024 features is projected onto 16 heads of 64 coordinates three times, by three families of
  weight rows `wq`, `wk`, `wv` (head, coordinate, feature). Head `h` scores every head `g` by the inner product of
  its first projection with `g`'s second, divided by 8; the scores of `h` are shifted by their maximum,
  exponentiated and normalised by their sum (a softmax over the heads), and the third projections are averaged
  with those weights. The 16 × 64 averaged coordinates, laid out head-major, are projected once more by the rows
  of `wp` and a bias is added.

  Everything is an extended real; division, the exponential and the two literals (8 and −∞, kept as the words the
  programs print) are the ideal ones. The sums are finite sums over `Fin`, the maximum a fold of `max` from −∞.
-/
import Idealize.ShloMosaic.PureOps.Ideal
import Idealize.ShloMosaic.Lib.ValueIdx

noncomputable section

open scoped BigOperators

namespace Cert.HeadMix

open Idealize.ShloMosaic Idealize.ShloMosaic.ValueIdx

/-- A family of weight rows: head, coordinate within the head, input feature. -/
abbrev HeadW : Type := Fin 16 → Fin 64 → Fin 1024 → EReal

/-- Coordinate `d` of head `h` of the row's projection by `w`. -/
def proj (xr : Fin 1024 → EReal) (w : HeadW) (h : Fin 16) (d : Fin 64) : EReal :=
  ∑ k : Fin 1024, xr k * w h d k

/-- The score head `h` gives head `g`: the inner product of the two projections over the 64 coordinates, over 8. -/
def score (xr : Fin 1024 → EReal) (wq wk : HeadW) (h g : Fin 16) : EReal :=
  Ideal.div (∑ d : Fin 64, proj xr wq h d * proj xr wk g d) (Ideal.ofBits .f32 0x41000000#32)

/-- The largest score head `h` gives, as a fold of `max` from −∞ over the 16 heads. -/
def top (xr : Fin 1024 → EReal) (wq wk : HeadW) (h : Fin 16) : EReal :=
  (Finset.univ : Finset (Fin 16)).fold max (Ideal.ofBits .f32 0xFF800000#32) (fun g => score xr wq wk h g)

/-- The exponential of a score shifted by the largest one. -/
def ex (xr : Fin 1024 → EReal) (wq wk : HeadW) (h g : Fin 16) : EReal :=
  Ideal.exp (score xr wq wk h g - top xr wq wk h)

/-- The normaliser of head `h`: the sum of its shifted exponentials. -/
def den (xr : Fin 1024 → EReal) (wq wk : HeadW) (h : Fin 16) : EReal :=
  ∑ g : Fin 16, ex xr wq wk h g

/-- The softmax weight head `h` gives head `g`. -/
def weight (xr : Fin 1024 → EReal) (wq wk : HeadW) (h g : Fin 16) : EReal :=
  Ideal.div (ex xr wq wk h g) (den xr wq wk h)

/-- Coordinate `d` of head `h` after averaging the third projections with the softmax weights. -/
def mix (xr : Fin 1024 → EReal) (wq wk wv : HeadW) (h : Fin 16) (d : Fin 64) : EReal :=
  ∑ g : Fin 16, weight xr wq wk h g * proj xr wv g d

/-- The head of flat position `i` of the head-major layout `i = 64 h + d`. -/
def hd (i : Fin 1024) : Fin 16 := ⟨i.val / 64, by have := i.isLt; omega⟩
/-- The coordinate within the head of flat position `i`. -/
def dm (i : Fin 1024) : Fin 64 := ⟨i.val % 64, by omega⟩

/-- Output feature `j` of the row: the averaged coordinates against row `j` of `wp`, plus the bias. -/
def rowOut (xr : Fin 1024 → EReal) (wq wk wv : HeadW) (wp : Fin 1024 → Fin 1024 → EReal) (bp : Fin 1024 → EReal)
    (j : Fin 1024) : EReal :=
  (∑ i : Fin 1024, mix xr wq wk wv (hd i) (dm i) * wp j i) + bp j

/-- The reference's weight rows: rows `192 h + 64 o + d` of the 3072 × 1024 matrix (each head's block of 192 rows
    holds its three projections one after the other), `o = 0, 1, 2`. -/
def interleaved (W : (⟨2, ![3072, 1024]⟩ : Shape).Idx → EReal) (o : Fin 3) : HeadW :=
  fun h d k => W (ix2 ⟨h.val * 192 + o.val * 64 + d.val, by have := h.isLt; have := o.isLt; have := d.isLt; omega⟩ k)

/-- The kernel's weight rows: rows `1024 o + 64 h + d` of a 3072 × 1024 matrix whose three projections are three
    contiguous blocks of 1024 rows. -/
def blocked (W : (⟨2, ![3072, 1024]⟩ : Shape).Idx → EReal) (o : Fin 3) : HeadW :=
  fun h d k => W (ix2 ⟨o.val * 1024 + h.val * 64 + d.val, by have := h.isLt; have := o.isLt; have := d.isLt; omega⟩ k)

/-- The row permutation between the two layouts: blocked row `1024 o + 64 h + d` is interleaved row `192 h + 64 o + d`. -/
def perm (f : Fin 3072) : Fin 3072 :=
  ⟨(f.val % 1024 / 64) * 192 + (f.val / 1024) * 64 + f.val % 64, by have := f.isLt; omega⟩

/-- A matrix whose rows are the permuted rows of `W` has, as its blocked families, `W`'s interleaved ones. -/
theorem blocked_of_perm (W W' : (⟨2, ![3072, 1024]⟩ : Shape).Idx → EReal)
    (hW : ∀ (f : Fin 3072) (k : Fin 1024), W' (ix2 f k) = W (ix2 (perm f) k)) (o : Fin 3) :
    blocked W' o = interleaved W o := by
  funext h d k
  unfold blocked interleaved
  rw [hW]
  congr 2
  refine Fin.ext ?_
  have := h.isLt; have := o.isLt; have := d.isLt
  show ((o.val * 1024 + h.val * 64 + d.val) % 1024 / 64) * 192 + ((o.val * 1024 + h.val * 64 + d.val) / 1024) * 64
    + (o.val * 1024 + h.val * 64 + d.val) % 64 = h.val * 192 + o.val * 64 + d.val
  omega

end Cert.HeadMix

end
-- ==== Proof.RefRow.lean ====
/-
  The reference program, stage by stage, is the row function of `HeadMix`.

  The reference multiplies the whole input by the 3072 × 1024 matrix, regroups the 3072 columns as 16 heads of 192,
  and cuts each head's 192 into three runs of 64: column `192 h + 64 o + d` is coordinate `d` of head `h` of
  projection `o` — the `interleaved` weight rows. From there every stage at (b, n, ·) depends only on row (b, n) of
  the input, and is the stage of the same name in `HeadMix`: the scores over 8, their maximum (a fold of `max` from
  −∞; the extra `max` with −∞ the reference takes afterwards changes nothing, since a fold from −∞ is at least −∞),
  the shifted exponentials, their sum from 0, the quotient, the weighted average, the head-major flattening
  `i = 64 h + d`, the last product with the rows of the second matrix, and the bias.
-/
import proofs.«102548_j77781857730894_2_alg».proof.Proof.Gen.ReferenceIdeal.Read
import proofs.«102548_j77781857730894_2_alg».proof.Proof.HeadMix
import Idealize.ShloMosaic.PureOps.Ideal.Laws
import Idealize.ShloMosaic.PureOps.Reduce

noncomputable section

open scoped BigOperators

namespace Cert.ReferenceIdeal.RefRow

open Cert.ReferenceIdeal Cert.ReferenceIdeal.Gen Cert.ReferenceIdeal.Read Cert.HeadMix
open Idealize.ShloMosaic Idealize.ShloMosaic.ValueIdx

variable (x : (⟨S8x2048x1024, .f32⟩ : BufTy).Contents (Elt Ideal)) (W : (⟨S3072x1024, .f32⟩ : BufTy).Contents (Elt Ideal))

/-- Row (b, n) of the input. -/
def row (b : Fin 8) (n : Fin 2048) : Fin 1024 → EReal := fun k => x (ix3 b n k)

/-- The regrouped product at (b, n, h, 64 o + d) is coordinate `d` of head `h` of projection `o` of the row. -/
theorem grouped_at (b : Fin 8) (n : Fin 2048) (h : Fin 16) (o : Fin 3) (d : Fin 64) :
    val_main_v1 (F := Ideal) x W (ix4 b n h ⟨o.val * 64 + d.val, by have := o.isLt; have := d.isLt; omega⟩)
      = proj (row x b n) (interleaved W o) h d := by
  rw [val_main_v1_apply, val_main_v0_apply]
  unfold proj row interleaved
  refine Finset.sum_congr rfl fun k _ => ?_
  have hb := b.isLt; have hn := n.isLt; have hh := h.isLt; have ho := o.isLt; have hd := d.isLt
  have el : lidx_main_v0 (idx_main_v1 (ix4 b n h ⟨o.val * 64 + d.val, by omega⟩)) k = ix3 b n k :=
    funext fun a => Fin.ext (by
      match a with
      | ⟨0, _⟩ => show (((b.val * 2048 + n.val) * 16 + h.val) * 192 + (o.val * 64 + d.val)) / 6291456 = b.val; omega
      | ⟨1, _⟩ => show (((b.val * 2048 + n.val) * 16 + h.val) * 192 + (o.val * 64 + d.val)) / 3072 % 2048 = n.val; omega
      | ⟨2, _⟩ => rfl)
  have er : ridx_main_v0 (idx_main_v1 (ix4 b n h ⟨o.val * 64 + d.val, by omega⟩)) k
      = ix2 ⟨h.val * 192 + o.val * 64 + d.val, by omega⟩ k :=
    funext fun a => Fin.ext (by
      match a with
      | ⟨0, _⟩ => show (((b.val * 2048 + n.val) * 16 + h.val) * 192 + (o.val * 64 + d.val)) % 3072 = h.val * 192 + o.val * 64 + d.val; omega
      | ⟨1, _⟩ => rfl)
  rw [el, er]

/-- The first cut (columns 0–63 of each head) is projection 0. -/
theorem first_at (b : Fin 8) (n : Fin 2048) (h : Fin 16) (d : Fin 64) :
    val_main_v2 (F := Ideal) x W (ix4 b n h d) = proj (row x b n) (interleaved W 0) h d := by
  rw [val_main_v2_apply, ← grouped_at x W b n h 0 d]
  refine congrArg _ (funext fun a => Fin.ext (by
    match a with
    | ⟨0, _⟩ => rfl
    | ⟨1, _⟩ => rfl
    | ⟨2, _⟩ => rfl
    | ⟨3, _⟩ => show d.val = 0 * 64 + d.val; omega))

/-- The second cut (columns 64–127) is projection 1. -/
theorem second_at (b : Fin 8) (n : Fin 2048) (h : Fin 16) (d : Fin 64) :
    val_main_v3 (F := Ideal) x W (ix4 b n h d) = proj (row x b n) (interleaved W 1) h d := by
  rw [val_main_v3_apply, ← grouped_at x W b n h 1 d]
  refine congrArg _ (funext fun a => Fin.ext (by
    match a with
    | ⟨0, _⟩ => rfl
    | ⟨1, _⟩ => rfl
    | ⟨2, _⟩ => rfl
    | ⟨3, _⟩ => show 64 + d.val = 1 * 64 + d.val; omega))

/-- The third cut (columns 128–191) is projection 2. -/
theorem third_at (b : Fin 8) (n : Fin 2048) (h : Fin 16) (d : Fin 64) :
    val_main_v4 (F := Ideal) x W (ix4 b n h d) = proj (row x b n) (interleaved W 2) h d := by
  rw [val_main_v4_apply, ← grouped_at x W b n h 2 d]
  refine congrArg _ (funext fun a => Fin.ext (by
    match a with
    | ⟨0, _⟩ => rfl
    | ⟨1, _⟩ => rfl
    | ⟨2, _⟩ => rfl
    | ⟨3, _⟩ => show 128 + d.val = 2 * 64 + d.val; omega))

/-- The scaled scores. -/
theorem score_at (b : Fin 8) (n : Fin 2048) (h g : Fin 16) :
    val_main_v7 (F := Ideal) x W (ix4 b n h g) = score (row x b n) (interleaved W 0) (interleaved W 1) h g := by
  rw [val_main_v7_apply, val_main_v5_apply, val_main_v6_apply, val_main_cst_apply]
  unfold score
  show Ideal.div _ _ = Ideal.div _ _
  refine congrArg (fun s => Ideal.div s _) (Finset.sum_congr rfl fun k _ => ?_)
  have el : lidx_main_v5 (ix4 b n h g) k = ix4 b n h k :=
    funext fun a => Fin.ext (by match a with | ⟨0, _⟩ => rfl | ⟨1, _⟩ => rfl | ⟨2, _⟩ => rfl | ⟨3, _⟩ => rfl)
  have er : ridx_main_v5 (ix4 b n h g) k = ix4 b n g k :=
    funext fun a => Fin.ext (by match a with | ⟨0, _⟩ => rfl | ⟨1, _⟩ => rfl | ⟨2, _⟩ => rfl | ⟨3, _⟩ => rfl)
  rw [el, er, first_at, second_at]

/-- The largest score of a head: the reduce's fold from −∞, and the later `max` with −∞ that changes nothing. -/
theorem top_at (b : Fin 8) (n : Fin 2048) (h : Fin 16) :
    val_main_v10 (F := Ideal) x W (ix3 b n h) = top (row x b n) (interleaved W 0) (interleaved W 1) h := by
  have hred : Shape.Reduces S8x2048x16x16 [3] S8x2048x16 := by decide
  rw [val_main_v10_apply, val_main_v9_apply, val_main_cst_1_apply]
  unfold val_main_v8
  refine (congrArg (FloatOps.maximumf (F := Ideal) (φ := .f32) (FloatOps.ofBits .f32 0xFF800000#32))
    (Host.reduce_eq_fold_single (FloatOps.maximumf (F := Ideal) (φ := .f32)) (val_main_v7 (F := Ideal) x W)
      (val_main_cst_0 (F := Ideal)) reducesTo_S8x2048x16x16_S8x2048x16_d3 hred h_S_ (ix3 b n h))).trans ?_
  refine (congrArg (FloatOps.maximumf (F := Ideal) (φ := .f32) _)
    (Finset.fold_congr (g := fun g => score (row x b n) (interleaved W 0) (interleaved W 1) h g) fun g _ => ?_)).trans ?_
  · show val_main_v7 (F := Ideal) x W (hred.lift (ix3 b n h) g) = _
    have e : hred.lift (ix3 b n h) g = ix4 b n h g :=
      funext fun a => Fin.ext (by match a with | ⟨0, _⟩ => rfl | ⟨1, _⟩ => rfl | ⟨2, _⟩ => rfl | ⟨3, _⟩ => rfl)
    rw [e, score_at]
  · unfold top
    exact max_eq_right ((Finset.le_fold_max _).mpr (Or.inl le_rfl))

/-- The shifted exponentials. -/
theorem ex_at (b : Fin 8) (n : Fin 2048) (h g : Fin 16) :
    val_main_v14 (F := Ideal) x W (ix4 b n h g) = ex (row x b n) (interleaved W 0) (interleaved W 1) h g := by
  rw [val_main_v14_apply, val_main_v13_apply, val_main_v12_apply, val_main_v11_apply]
  have e : idx_main_v11 (idx_main_v12 (ix4 b n h g)) = ix3 b n h :=
    funext fun a => Fin.ext (by match a with | ⟨0, _⟩ => rfl | ⟨1, _⟩ => rfl | ⟨2, _⟩ => rfl)
  rw [e, top_at, score_at]
  rfl

/-- The normaliser: the reduce's sum started from the zero word. -/
theorem den_at (b : Fin 8) (n : Fin 2048) (h : Fin 16) :
    val_main_v15 (F := Ideal) x W (ix3 b n h) = den (row x b n) (interleaved W 0) (interleaved W 1) h := by
  rw [val_main_v15_apply, val_main_cst_2_apply]
  unfold den
  show Ideal.ofBits .f32 0x00000000#32 + _ = _
  rw [Ideal.ofBits_zero_f32, zero_add]
  refine Finset.sum_congr rfl fun k _ => ?_
  have e : idx_main_v15 (ix3 b n h) k = ix4 b n h k :=
    funext fun a => Fin.ext (by match a with | ⟨0, _⟩ => rfl | ⟨1, _⟩ => rfl | ⟨2, _⟩ => rfl | ⟨3, _⟩ => rfl)
  rw [e, ex_at]

/-- The softmax weights. -/
theorem weight_at (b : Fin 8) (n : Fin 2048) (h g : Fin 16) :
    val_main_v18 (F := Ideal) x W (ix4 b n h g) = weight (row x b n) (interleaved W 0) (interleaved W 1) h g := by
  rw [val_main_v18_apply, val_main_v17_apply, val_main_v16_apply]
  have e : idx_main_v16 (idx_main_v17 (ix4 b n h g)) = ix3 b n h :=
    funext fun a => Fin.ext (by match a with | ⟨0, _⟩ => rfl | ⟨1, _⟩ => rfl | ⟨2, _⟩ => rfl)
  rw [e, den_at, ex_at]
  rfl

/-- The weighted averages. -/
theorem mix_at (b : Fin 8) (n : Fin 2048) (h : Fin 16) (d : Fin 64) :
    val_main_v19 (F := Ideal) x W (ix4 b n h d)
      = mix (row x b n) (interleaved W 0) (interleaved W 1) (interleaved W 2) h d := by
  rw [val_main_v19_apply]
  unfold mix
  refine Finset.sum_congr rfl fun k _ => ?_
  have el : lidx_main_v19 (ix4 b n h d) k = ix4 b n h k :=
    funext fun a => Fin.ext (by match a with | ⟨0, _⟩ => rfl | ⟨1, _⟩ => rfl | ⟨2, _⟩ => rfl | ⟨3, _⟩ => rfl)
  have er : ridx_main_v19 (ix4 b n h d) k = ix4 b n k d :=
    funext fun a => Fin.ext (by match a with | ⟨0, _⟩ => rfl | ⟨1, _⟩ => rfl | ⟨2, _⟩ => rfl | ⟨3, _⟩ => rfl)
  rw [el, er, weight_at, third_at]

/-- The head-major flattening: position `i` is coordinate `i % 64` of head `i / 64`. -/
theorem flat_at (b : Fin 8) (n : Fin 2048) (i : Fin 1024) :
    val_main_v20 (F := Ideal) x W (ix3 b n i)
      = mix (row x b n) (interleaved W 0) (interleaved W 1) (interleaved W 2) (hd i) (dm i) := by
  rw [val_main_v20_apply, ← mix_at]
  have hb := b.isLt; have hn := n.isLt; have hi := i.isLt
  refine congrArg _ (funext fun a => Fin.ext (by
    match a with
    | ⟨0, _⟩ => show ((b.val * 2048 + n.val) * 1024 + i.val) / 2097152 = b.val; omega
    | ⟨1, _⟩ => show ((b.val * 2048 + n.val) * 1024 + i.val) / 1024 % 2048 = n.val; omega
    | ⟨2, _⟩ => show ((b.val * 2048 + n.val) * 1024 + i.val) / 64 % 16 = i.val / 64; omega
    | ⟨3, _⟩ => show ((b.val * 2048 + n.val) * 1024 + i.val) % 64 = i.val % 64; omega))

/-- THE REFERENCE AT AN INDEX: entry (b, n, j) of its result is output feature `j` of row (b, n). -/
theorem result_at (Wp : (⟨S1024x1024, .f32⟩ : BufTy).Contents (Elt Ideal)) (bp : (⟨S1024, .f32⟩ : BufTy).Contents (Elt Ideal))
    (b : Fin 8) (n : Fin 2048) (j : Fin 1024) :
    val_main_v24 (F := Ideal) x W Wp bp (ix3 b n j)
      = rowOut (row x b n) (interleaved W 0) (interleaved W 1) (interleaved W 2) (fun j i => Wp (ix2 j i))
          (fun j => bp (ix1 j)) j := by
  rw [val_main_v24_apply, val_main_v21_apply, val_main_v23_apply, val_main_v22_apply]
  unfold rowOut
  show _ + _ = _ + _
  have eb : idx_main_v22 (idx_main_v23 (ix3 b n j)) = ix1 j :=
    funext fun a => Fin.ext (by match a with | ⟨0, _⟩ => rfl)
  rw [eb]
  refine congrArg (· + bp (ix1 j)) (Finset.sum_congr rfl fun k _ => ?_)
  have el : lidx_main_v21 (ix3 b n j) k = ix3 b n k :=
    funext fun a => Fin.ext (by match a with | ⟨0, _⟩ => rfl | ⟨1, _⟩ => rfl | ⟨2, _⟩ => rfl)
  have er : ridx_main_v21 (ix3 b n j) k = ix2 j k :=
    funext fun a => Fin.ext (by match a with | ⟨0, _⟩ => rfl | ⟨1, _⟩ => rfl)
  rw [el, er, flat_at]

end Cert.ReferenceIdeal.RefRow

end
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.BlockRow.lean ====
/-
  The kernel's block, stage by stage, is the row function of `HeadMix`.

  One grid point holds 512 rows of the flattened input, the whole 3072 × 1024 weight matrix (its rows already
  regrouped so that the three projections are three contiguous blocks of 1024 rows: the `blocked` weight rows), the
  whole second matrix and the bias as one row. Every stage of the body at row `r` depends on row `r` of the block only,
  and is the stage of the same name in `HeadMix`: the first product (a contraction of the second axes of both
  operands), its three column blocks regrouped as 16 heads of 64, the head-by-head inner products over 8, their
  maximum from −∞, the shifted exponentials, their sum, the quotient, the weighted average, the head-major flattening,
  the second product and the bias. A change of float format is the identity on extended reals, and a product
  accumulated into the zero splat is the plain sum.
-/
import proofs.«102548_j77781857730894_2_alg».proof.Proof.Gen.KernelIdeal.Skeleton
import proofs.«102548_j77781857730894_2_alg».proof.Proof.HeadMix
import proofs.«102548_j77781857730894_2_alg».proof.Proof.LibDotRowRow
import proofs.«102548_j77781857730894_2_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockRow

open Cert.KernelIdeal Cert.KernelIdeal.Gen Cert.HeadMix
open Idealize.ShloMosaic Idealize.ShloMosaic.ValueIdx

variable (x0 : Vec Ideal S512x1024 .f32) (x1 : Vec Ideal S3072x1024 .bf16) (x2 : Vec Ideal S1024x1024 .bf16)
  (x3 : Vec Ideal S1x1024 .f32)

/-! ## The body's stages, named -/

/-- The first product: 512 rows against the 3072 weight rows. -/
def qkv : FVec Ideal S512x3072 .f32 :=
  matmul dot_S512x1024_S3072x1024_S512x3072_1_1_0_0_n_n none
    (truncf .bf16 (shapeCast S512x1024 x0 shapeCasts_S512x1024_S512x1024 : FVec Ideal S512x1024 .f32) bitsLt_bf16_f32 : FVec Ideal S512x1024 .bf16)
    (shapeCast S3072x1024 x1 shapeCasts_S3072x1024_S3072x1024 : FVec Ideal S3072x1024 .bf16) (constant S512x3072 .f32 0x00000000#32)

/-- Its first 1024 columns as 16 heads of 64. -/
def head0 : FVec Ideal S512x16x64 .f32 :=
  shapeCast S512x16x64 (extractStridedSlice S512x1024 ![0, 0] (qkv x0 x1) slices_S512x3072_o0_0_S512x1024)
    shapeCasts_S512x1024_S512x16x64
/-- Its middle 1024 columns as 16 heads of 64. -/
def head1 : FVec Ideal S512x16x64 .f32 :=
  shapeCast S512x16x64 (extractStridedSlice S512x1024 ![0, 1024] (qkv x0 x1) slices_S512x3072_o0_1024_S512x1024)
    shapeCasts_S512x1024_S512x16x64
/-- Its last 1024 columns as 16 heads of 64. -/
def head2 : FVec Ideal S512x16x64 .f32 :=
  shapeCast S512x16x64 (extractStridedSlice S512x1024 ![0, 2048] (qkv x0 x1) slices_S512x3072_o0_2048_S512x1024)
    shapeCasts_S512x1024_S512x16x64

/-- The head-by-head inner products, over 8. -/
def scores : FVec Ideal S512x16x16 .f32 :=
  divf (matmul dot_S512x16x64_S512x16x64_S512x16x16_2_2_1_1_0_0 none (head0 x0 x1) (head1 x0 x1)
      (constant S512x16x16 .f32 0x00000000#32))
    (broadcast S512x16x16 (Scalar.ofBits .f32 0x41000000#32))

/-- Each head's largest score. -/
def tops : FVec Ideal S512x16 .f32 :=
  multiReduction .maximumf [2] S512x16 (scores x0 x1) 0xFF800000#32 reduces_S512x16x16_S512x16 (.inl rfl) rfl

/-- The shifted exponentials. -/
def exps : FVec Ideal S512x16x16 .f32 :=
  exp (subf (scores x0 x1)
    (broadcastTo S512x16x16 (shapeCast S512x16x1 (tops x0 x1) shapeCasts_S512x16_S512x16x1) broadcasts_S512x16x1_S512x16x16))

/-- Their sums. -/
def dens : FVec Ideal S512x16 .f32 :=
  multiReduction .add [2] S512x16 (exps x0 x1) 0x00000000#32 reduces_S512x16x16_S512x16 (.inl rfl) rfl

/-- The softmax weights. -/
def weights : FVec Ideal S512x16x16 .f32 :=
  divf (exps x0 x1)
    (broadcastTo S512x16x16 (shapeCast S512x16x1 (dens x0 x1) shapeCasts_S512x16_S512x16x1) broadcasts_S512x16x1_S512x16x16)

/-- The weighted averages of the third projections. -/
def mixed : FVec Ideal S512x16x64 .f32 :=
  matmul dot_S512x16x16_S512x16x64_S512x16x64_2_1_1_2_0_0 none (weights x0 x1) (head2 x0 x1)
    (constant S512x16x64 .f32 0x00000000#32)

/-- The block's result: the flattened averages against the second matrix's rows, plus the bias row. -/
def result : FVec Ideal S512x1024 .f32 :=
  addf (matmul dot_S512x1024_S1024x1024_S512x1024_1_1_0_0_n_n none
      (truncf .bf16 (shapeCast S512x1024 (mixed x0 x1) shapeCasts_S512x16x64_S512x1024 : FVec Ideal S512x1024 .f32) bitsLt_bf16_f32 : FVec Ideal S512x1024 .bf16)
      (shapeCast S1024x1024 x2 shapeCasts_S1024x1024_S1024x1024 : FVec Ideal S1024x1024 .bf16) (constant S512x1024 .f32 0x00000000#32))
    (broadcastTo S512x1024 (shapeCast S1x1024 x3 shapeCasts_S1x1024_S1x1024 : FVec Ideal S1x1024 .f32) broadcasts_S1x1024_S512x1024)

/-- The stored value is the last stage: the body's lines are these definitions, in order. -/
theorem payload_eq : k0_pay1 (F := Ideal) x0 x1 x2 x3 = result x0 x1 x2 x3 := rfl

/-! ## The two head-by-head contractions as plain sums

Both carry the row axis as a batch axis; the first contracts the 64 coordinates of both operands, the second
contracts the scored head against the second operand's head axis. On a batch or kept axis an operand's index reads
the result's coordinate, on its contracted axis the contraction's one coordinate. -/

theorem dot_S512x16x64_S512x16x64_S512x16x16_2_2_1_1_0_0_lhs0 (i : S512x16x16.Idx) (q : dot_S512x16x64_S512x16x64_S512x16x16_2_2_1_1_0_0.contr.Idx) :
    (dot_S512x16x64_S512x16x64_S512x16x16_2_2_1_1_0_0.lhsIdx i q 0).val = (i 0).val := by
  unfold DotDims.lhsIdx
  rw [dif_pos (show (0 : Fin S512x16x64.rank) ∈ dot_S512x16x64_S512x16x64_S512x16x16_2_2_1_1_0_0.lhsBatch by decide)]
  rfl
theorem dot_S512x16x64_S512x16x64_S512x16x16_2_2_1_1_0_0_lhs1 (i : S512x16x16.Idx) (q : dot_S512x16x64_S512x16x64_S512x16x16_2_2_1_1_0_0.contr.Idx) :
    (dot_S512x16x64_S512x16x64_S512x16x16_2_2_1_1_0_0.lhsIdx i q 1).val = (i 1).val := by
  unfold DotDims.lhsIdx
  rw [dif_neg (show ¬(1 : Fin S512x16x64.rank) ∈ dot_S512x16x64_S512x16x64_S512x16x16_2_2_1_1_0_0.lhsBatch by decide),
    dif_pos (show (1 : Fin S512x16x64.rank) ∈ dot_S512x16x64_S512x16x64_S512x16x16_2_2_1_1_0_0.lhsNonContracting by decide)]
  rfl
theorem dot_S512x16x64_S512x16x64_S512x16x16_2_2_1_1_0_0_lhs2 (i : S512x16x16.Idx) (q : dot_S512x16x64_S512x16x64_S512x16x16_2_2_1_1_0_0.contr.Idx) :
    (dot_S512x16x64_S512x16x64_S512x16x16_2_2_1_1_0_0.lhsIdx i q 2).val = (q ⟨0, by decide⟩).val :=
  dot_S512x16x64_S512x16x64_S512x16x16_2_2_1_1_0_0.lhsIdx_val_of_single rfl i q
theorem dot_S512x16x64_S512x16x64_S512x16x16_2_2_1_1_0_0_rhs0 (i : S512x16x16.Idx) (q : dot_S512x16x64_S512x16x64_S512x16x16_2_2_1_1_0_0.contr.Idx) :
    (dot_S512x16x64_S512x16x64_S512x16x16_2_2_1_1_0_0.rhsIdx i q 0).val = (i 0).val := by
  unfold DotDims.rhsIdx
  rw [dif_pos (show (0 : Fin S512x16x64.rank) ∈ dot_S512x16x64_S512x16x64_S512x16x16_2_2_1_1_0_0.rhsBatch by decide)]
  rfl
theorem dot_S512x16x64_S512x16x64_S512x16x16_2_2_1_1_0_0_rhs1 (i : S512x16x16.Idx) (q : dot_S512x16x64_S512x16x64_S512x16x16_2_2_1_1_0_0.contr.Idx) :
    (dot_S512x16x64_S512x16x64_S512x16x16_2_2_1_1_0_0.rhsIdx i q 1).val = (i 2).val := by
  unfold DotDims.rhsIdx
  rw [dif_neg (show ¬(1 : Fin S512x16x64.rank) ∈ dot_S512x16x64_S512x16x64_S512x16x16_2_2_1_1_0_0.rhsBatch by decide),
    dif_pos (show (1 : Fin S512x16x64.rank) ∈ dot_S512x16x64_S512x16x64_S512x16x16_2_2_1_1_0_0.rhsNonContracting by decide)]
  rfl
theorem dot_S512x16x64_S512x16x64_S512x16x16_2_2_1_1_0_0_rhs2 (i : S512x16x16.Idx) (q : dot_S512x16x64_S512x16x64_S512x16x16_2_2_1_1_0_0.contr.Idx) :
    (dot_S512x16x64_S512x16x64_S512x16x16_2_2_1_1_0_0.rhsIdx i q 2).val = (q ⟨0, by decide⟩).val :=
  dot_S512x16x64_S512x16x64_S512x16x16_2_2_1_1_0_0.rhsIdx_val_of_single rfl i q

theorem headScore_sum (X Y : FVec Ideal S512x16x64 .f32) (r : Fin 512) (h g : Fin 16) :
    ∑ q : dot_S512x16x64_S512x16x64_S512x16x16_2_2_1_1_0_0.contr.Idx, X (dot_S512x16x64_S512x16x64_S512x16x16_2_2_1_1_0_0.lhsIdx (ix3 r h g) q) * Y (dot_S512x16x64_S512x16x64_S512x16x16_2_2_1_1_0_0.rhsIdx (ix3 r h g) q)
      = ∑ k : Fin 64, X (ix3 r h k) * Y (ix3 r g k) := by
  rw [← Equiv.sum_comp (contrEquiv1 dot_S512x16x64_S512x16x64_S512x16x16_2_2_1_1_0_0 64 rfl rfl).symm]
  refine Finset.sum_congr rfl fun k _ => ?_
  have hk := contrEquiv1_symm_val dot_S512x16x64_S512x16x64_S512x16x16_2_2_1_1_0_0 64 rfl rfl k
  have el : dot_S512x16x64_S512x16x64_S512x16x16_2_2_1_1_0_0.lhsIdx (ix3 r h g) ((contrEquiv1 dot_S512x16x64_S512x16x64_S512x16x16_2_2_1_1_0_0 64 rfl rfl).symm k) = ix3 r h k :=
    funext fun a => Fin.ext (by
      match a with
      | ⟨0, _⟩ => exact dot_S512x16x64_S512x16x64_S512x16x16_2_2_1_1_0_0_lhs0 _ _
      | ⟨1, _⟩ => exact dot_S512x16x64_S512x16x64_S512x16x16_2_2_1_1_0_0_lhs1 _ _
      | ⟨2, _⟩ => exact (dot_S512x16x64_S512x16x64_S512x16x16_2_2_1_1_0_0_lhs2 _ _).trans hk)
  have er : dot_S512x16x64_S512x16x64_S512x16x16_2_2_1_1_0_0.rhsIdx (ix3 r h g) ((contrEquiv1 dot_S512x16x64_S512x16x64_S512x16x16_2_2_1_1_0_0 64 rfl rfl).symm k) = ix3 r g k :=
    funext fun a => Fin.ext (by
      match a with
      | ⟨0, _⟩ => exact dot_S512x16x64_S512x16x64_S512x16x16_2_2_1_1_0_0_rhs0 _ _
      | ⟨1, _⟩ => exact dot_S512x16x64_S512x16x64_S512x16x16_2_2_1_1_0_0_rhs1 _ _
      | ⟨2, _⟩ => exact (dot_S512x16x64_S512x16x64_S512x16x16_2_2_1_1_0_0_rhs2 _ _).trans hk)
  rw [el, er]

theorem dot_S512x16x16_S512x16x64_S512x16x64_2_1_1_2_0_0_lhs0 (i : S512x16x64.Idx) (q : dot_S512x16x16_S512x16x64_S512x16x64_2_1_1_2_0_0.contr.Idx) :
    (dot_S512x16x16_S512x16x64_S512x16x64_2_1_1_2_0_0.lhsIdx i q 0).val = (i 0).val := by
  unfold DotDims.lhsIdx
  rw [dif_pos (show (0 : Fin S512x16x16.rank) ∈ dot_S512x16x16_S512x16x64_S512x16x64_2_1_1_2_0_0.lhsBatch by decide)]
  rfl
theorem dot_S512x16x16_S512x16x64_S512x16x64_2_1_1_2_0_0_lhs1 (i : S512x16x64.Idx) (q : dot_S512x16x16_S512x16x64_S512x16x64_2_1_1_2_0_0.contr.Idx) :
    (dot_S512x16x16_S512x16x64_S512x16x64_2_1_1_2_0_0.lhsIdx i q 1).val = (i 1).val := by
  unfold DotDims.lhsIdx
  rw [dif_neg (show ¬(1 : Fin S512x16x16.rank) ∈ dot_S512x16x16_S512x16x64_S512x16x64_2_1_1_2_0_0.lhsBatch by decide),
    dif_pos (show (1 : Fin S512x16x16.rank) ∈ dot_S512x16x16_S512x16x64_S512x16x64_2_1_1_2_0_0.lhsNonContracting by decide)]
  rfl
theorem dot_S512x16x16_S512x16x64_S512x16x64_2_1_1_2_0_0_lhs2 (i : S512x16x64.Idx) (q : dot_S512x16x16_S512x16x64_S512x16x64_2_1_1_2_0_0.contr.Idx) :
    (dot_S512x16x16_S512x16x64_S512x16x64_2_1_1_2_0_0.lhsIdx i q 2).val = (q ⟨0, by decide⟩).val :=
  dot_S512x16x16_S512x16x64_S512x16x64_2_1_1_2_0_0.lhsIdx_val_of_single rfl i q
theorem dot_S512x16x16_S512x16x64_S512x16x64_2_1_1_2_0_0_rhs0 (i : S512x16x64.Idx) (q : dot_S512x16x16_S512x16x64_S512x16x64_2_1_1_2_0_0.contr.Idx) :
    (dot_S512x16x16_S512x16x64_S512x16x64_2_1_1_2_0_0.rhsIdx i q 0).val = (i 0).val := by
  unfold DotDims.rhsIdx
  rw [dif_pos (show (0 : Fin S512x16x64.rank) ∈ dot_S512x16x16_S512x16x64_S512x16x64_2_1_1_2_0_0.rhsBatch by decide)]
  rfl
theorem dot_S512x16x16_S512x16x64_S512x16x64_2_1_1_2_0_0_rhs1 (i : S512x16x64.Idx) (q : dot_S512x16x16_S512x16x64_S512x16x64_2_1_1_2_0_0.contr.Idx) :
    (dot_S512x16x16_S512x16x64_S512x16x64_2_1_1_2_0_0.rhsIdx i q 1).val = (q ⟨0, by decide⟩).val :=
  dot_S512x16x16_S512x16x64_S512x16x64_2_1_1_2_0_0.rhsIdx_val_of_single rfl i q
theorem dot_S512x16x16_S512x16x64_S512x16x64_2_1_1_2_0_0_rhs2 (i : S512x16x64.Idx) (q : dot_S512x16x16_S512x16x64_S512x16x64_2_1_1_2_0_0.contr.Idx) :
    (dot_S512x16x16_S512x16x64_S512x16x64_2_1_1_2_0_0.rhsIdx i q 2).val = (i 2).val := by
  unfold DotDims.rhsIdx
  rw [dif_neg (show ¬(2 : Fin S512x16x64.rank) ∈ dot_S512x16x16_S512x16x64_S512x16x64_2_1_1_2_0_0.rhsBatch by decide),
    dif_pos (show (2 : Fin S512x16x64.rank) ∈ dot_S512x16x16_S512x16x64_S512x16x64_2_1_1_2_0_0.rhsNonContracting by decide)]
  rfl

theorem headMix_sum (X : FVec Ideal S512x16x16 .f32) (Y : FVec Ideal S512x16x64 .f32) (r : Fin 512) (h : Fin 16) (d : Fin 64) :
    ∑ q : dot_S512x16x16_S512x16x64_S512x16x64_2_1_1_2_0_0.contr.Idx, X (dot_S512x16x16_S512x16x64_S512x16x64_2_1_1_2_0_0.lhsIdx (ix3 r h d) q) * Y (dot_S512x16x16_S512x16x64_S512x16x64_2_1_1_2_0_0.rhsIdx (ix3 r h d) q)
      = ∑ k : Fin 16, X (ix3 r h k) * Y (ix3 r k d) := by
  rw [← Equiv.sum_comp (contrEquiv1 dot_S512x16x16_S512x16x64_S512x16x64_2_1_1_2_0_0 16 rfl rfl).symm]
  refine Finset.sum_congr rfl fun k _ => ?_
  have hk := contrEquiv1_symm_val dot_S512x16x16_S512x16x64_S512x16x64_2_1_1_2_0_0 16 rfl rfl k
  have el : dot_S512x16x16_S512x16x64_S512x16x64_2_1_1_2_0_0.lhsIdx (ix3 r h d) ((contrEquiv1 dot_S512x16x16_S512x16x64_S512x16x64_2_1_1_2_0_0 16 rfl rfl).symm k) = ix3 r h k :=
    funext fun a => Fin.ext (by
      match a with
      | ⟨0, _⟩ => exact dot_S512x16x16_S512x16x64_S512x16x64_2_1_1_2_0_0_lhs0 _ _
      | ⟨1, _⟩ => exact dot_S512x16x16_S512x16x64_S512x16x64_2_1_1_2_0_0_lhs1 _ _
      | ⟨2, _⟩ => exact (dot_S512x16x16_S512x16x64_S512x16x64_2_1_1_2_0_0_lhs2 _ _).trans hk)
  have er : dot_S512x16x16_S512x16x64_S512x16x64_2_1_1_2_0_0.rhsIdx (ix3 r h d) ((contrEquiv1 dot_S512x16x16_S512x16x64_S512x16x64_2_1_1_2_0_0 16 rfl rfl).symm k) = ix3 r k d :=
    funext fun a => Fin.ext (by
      match a with
      | ⟨0, _⟩ => exact dot_S512x16x16_S512x16x64_S512x16x64_2_1_1_2_0_0_rhs0 _ _
      | ⟨1, _⟩ => exact (dot_S512x16x16_S512x16x64_S512x16x64_2_1_1_2_0_0_rhs1 _ _).trans hk
      | ⟨2, _⟩ => exact dot_S512x16x16_S512x16x64_S512x16x64_2_1_1_2_0_0_rhs2 _ _)
  rw [el, er]

/-! ## Each stage at an index -/

/-- The first product at (r, f): row `r` of the block against weight row `f`. -/
theorem qkv_at (r : Fin 512) (f : Fin 3072) :
    qkv x0 x1 (ix2 r f) = ∑ k : Fin 1024, x0 (ix2 r k) * x1 (ix2 f k) := by
  unfold qkv
  refine (Ideal.matmul_constant_zero_apply dot_S512x1024_S3072x1024_S512x3072_1_1_0_0_n_n none _ _ (ix2 r f)).trans ?_
  refine (Cert.RowRowDot.sum_eq (K := 1024) dot_S512x1024_S3072x1024_S512x3072_1_1_0_0_n_n rfl rfl rfl rfl rfl rfl rfl rfl _ _ r f).trans ?_
  refine Finset.sum_congr rfl fun k _ => ?_
  rw [shapeCast_self, shapeCast_self]
  rfl

/-- The first column block at (r, h, d) is coordinate `d` of head `h` of projection 0 of row `r`. -/
theorem head0_at (r : Fin 512) (h : Fin 16) (d : Fin 64) :
    head0 x0 x1 (ix3 r h d) = proj (fun k => x0 (ix2 r k)) (blocked x1 0) h d := by
  have hh := h.isLt; have hd := d.isLt; have hr := r.isLt
  unfold head0
  refine (shapeCast_apply _ _ (ix3 r h d) (ix2 r (⟨h.val * 64 + d.val, by omega⟩ : Fin 1024)) (by
    rw [Shape.rowMajor_val_two, Shape.rowMajor_val_three]
    show r.val * 1024 + (h.val * 64 + d.val) = (r.val * 16 + h.val) * 64 + d.val
    omega)).trans ?_
  refine (slice2_axis1_apply 0 _ _ r (⟨h.val * 64 + d.val, by omega⟩ : Fin 1024)
    (⟨0 * 1024 + h.val * 64 + d.val, by omega⟩ : Fin 3072) (by show 0 * 1024 + h.val * 64 + d.val = 0 + (h.val * 64 + d.val); omega)).trans ?_
  exact qkv_at x0 x1 r _

/-- The middle column block at (r, h, d) is coordinate `d` of head `h` of projection 1 of row `r`. -/
theorem head1_at (r : Fin 512) (h : Fin 16) (d : Fin 64) :
    head1 x0 x1 (ix3 r h d) = proj (fun k => x0 (ix2 r k)) (blocked x1 1) h d := by
  have hh := h.isLt; have hd := d.isLt; have hr := r.isLt
  unfold head1
  refine (shapeCast_apply _ _ (ix3 r h d) (ix2 r (⟨h.val * 64 + d.val, by omega⟩ : Fin 1024)) (by
    rw [Shape.rowMajor_val_two, Shape.rowMajor_val_three]
    show r.val * 1024 + (h.val * 64 + d.val) = (r.val * 16 + h.val) * 64 + d.val
    omega)).trans ?_
  refine (slice2_axis1_apply 1024 _ _ r (⟨h.val * 64 + d.val, by omega⟩ : Fin 1024)
    (⟨1 * 1024 + h.val * 64 + d.val, by omega⟩ : Fin 3072) (by show 1 * 1024 + h.val * 64 + d.val = 1024 + (h.val * 64 + d.val); omega)).trans ?_
  exact qkv_at x0 x1 r _

/-- The last column block at (r, h, d) is coordinate `d` of head `h` of projection 2 of row `r`. -/
theorem head2_at (r : Fin 512) (h : Fin 16) (d : Fin 64) :
    head2 x0 x1 (ix3 r h d) = proj (fun k => x0 (ix2 r k)) (blocked x1 2) h d := by
  have hh := h.isLt; have hd := d.isLt; have hr := r.isLt
  unfold head2
  refine (shapeCast_apply _ _ (ix3 r h d) (ix2 r (⟨h.val * 64 + d.val, by omega⟩ : Fin 1024)) (by
    rw [Shape.rowMajor_val_two, Shape.rowMajor_val_three]
    show r.val * 1024 + (h.val * 64 + d.val) = (r.val * 16 + h.val) * 64 + d.val
    omega)).trans ?_
  refine (slice2_axis1_apply 2048 _ _ r (⟨h.val * 64 + d.val, by omega⟩ : Fin 1024)
    (⟨2 * 1024 + h.val * 64 + d.val, by omega⟩ : Fin 3072) (by show 2 * 1024 + h.val * 64 + d.val = 2048 + (h.val * 64 + d.val); omega)).trans ?_
  exact qkv_at x0 x1 r _

/-- The scaled scores. -/
theorem scores_at (r : Fin 512) (h g : Fin 16) :
    scores x0 x1 (ix3 r h g) = score (fun k => x0 (ix2 r k)) (blocked x1 0) (blocked x1 1) h g := by
  unfold scores score
  show Ideal.div _ _ = Ideal.div _ _
  refine congrArg (fun s => Ideal.div s (Ideal.ofBits .f32 0x41000000#32)) ?_
  refine (Ideal.matmul_constant_zero_apply dot_S512x16x64_S512x16x64_S512x16x16_2_2_1_1_0_0 none _ _ (ix3 r h g)).trans ?_
  refine (headScore_sum _ _ r h g).trans ?_
  refine Finset.sum_congr rfl fun k _ => ?_
  rw [head0_at, head1_at]

/-- Each head's largest score: the lane reduction is the fold of `max` from −∞ over the 16 scored heads. -/
theorem tops_at (r : Fin 512) (h : Fin 16) :
    tops x0 x1 (ix2 r h) = top (fun k => x0 (ix2 r k)) (blocked x1 0) (blocked x1 1) h := by
  unfold tops top
  refine (Ideal.multiReduction_maximumf_single _ _ reduces_S512x16x16_S512x16 _ _ (ix2 r h)).trans ?_
  refine Finset.fold_congr fun g _ => ?_
  show scores x0 x1 (reduces_S512x16x16_S512x16.lift (ix2 r h) g) = _
  have e : reduces_S512x16x16_S512x16.lift (ix2 r h) g = (ix3 r h (show Fin 16 from g) : S512x16x16.Idx) :=
    funext fun a => Fin.ext (by match a with | ⟨0, _⟩ => rfl | ⟨1, _⟩ => rfl | ⟨2, _⟩ => rfl)
  rw [e]
  exact scores_at x0 x1 r h g

/-- The shifted exponentials. -/
theorem exps_at (r : Fin 512) (h g : Fin 16) :
    exps x0 x1 (ix3 r h g) = ex (fun k => x0 (ix2 r k)) (blocked x1 0) (blocked x1 1) h g := by
  unfold exps ex
  show Ideal.exp (scores x0 x1 (ix3 r h g) - broadcastTo S512x16x16 _ _ (ix3 r h g)) = _
  rw [broadcastTo_ab1_abc_apply, shapeCast_ab_ab1_apply, tops_at, scores_at]

/-- Their sums: the lane reduction from the zero word is the plain sum over the 16 scored heads. -/
theorem dens_at (r : Fin 512) (h : Fin 16) :
    dens x0 x1 (ix2 r h) = den (fun k => x0 (ix2 r k)) (blocked x1 0) (blocked x1 1) h := by
  unfold dens den
  refine (Ideal.multiReduction_add_single _ _ reduces_S512x16x16_S512x16 _ _ (ix2 r h)).trans ?_
  refine Finset.sum_congr rfl fun g _ => ?_
  have e : reduces_S512x16x16_S512x16.lift (ix2 r h) g = (ix3 r h (show Fin 16 from g) : S512x16x16.Idx) :=
    funext fun a => Fin.ext (by match a with | ⟨0, _⟩ => rfl | ⟨1, _⟩ => rfl | ⟨2, _⟩ => rfl)
  rw [e]
  exact exps_at x0 x1 r h g

/-- The softmax weights. -/
theorem weights_at (r : Fin 512) (h g : Fin 16) :
    weights x0 x1 (ix3 r h g) = weight (fun k => x0 (ix2 r k)) (blocked x1 0) (blocked x1 1) h g := by
  unfold weights weight
  show Ideal.div (exps x0 x1 (ix3 r h g)) (broadcastTo S512x16x16 _ _ (ix3 r h g)) = _
  rw [broadcastTo_ab1_abc_apply, shapeCast_ab_ab1_apply, dens_at, exps_at]

/-- The weighted averages. -/
theorem mixed_at (r : Fin 512) (h : Fin 16) (d : Fin 64) :
    mixed x0 x1 (ix3 r h d)
      = mix (fun k => x0 (ix2 r k)) (blocked x1 0) (blocked x1 1) (blocked x1 2) h d := by
  unfold mixed mix
  refine (Ideal.matmul_constant_zero_apply dot_S512x16x16_S512x16x64_S512x16x64_2_1_1_2_0_0 none _ _ (ix3 r h d)).trans ?_
  refine (headMix_sum _ _ r h d).trans ?_
  refine Finset.sum_congr rfl fun k _ => ?_
  rw [weights_at, head2_at]

/-- THE BLOCK AT AN INDEX: entry (r, j) of the stored value is output feature `j` of row `r` of the block. -/
theorem result_at (r : Fin 512) (j : Fin 1024) :
    result x0 x1 x2 x3 (ix2 r j)
      = rowOut (fun k => x0 (ix2 r k)) (blocked x1 0) (blocked x1 1) (blocked x1 2) (fun j i => x2 (ix2 j i))
          (fun j => x3 (ix2 (0 : Fin 1) j)) j := by
  unfold result rowOut
  show _ + _ = _ + _
  rw [broadcastTo_1b_ab_apply, shapeCast_self, shapeCast_self]
  refine congrArg (· + x3 (ix2 (0 : Fin 1) j)) ?_
  refine (Ideal.matmul_constant_zero_apply (φ₁ := .bf16) (φ₂ := .bf16) dot_S512x1024_S1024x1024_S512x1024_1_1_0_0_n_n none _ _ (ix2 r j)).trans ?_
  refine (Cert.RowRowDot.sum_eq (K := 1024) dot_S512x1024_S1024x1024_S512x1024_1_1_0_0_n_n rfl rfl rfl rfl rfl rfl rfl rfl _ _ r j).trans ?_
  refine Finset.sum_congr rfl fun i _ => ?_
  refine congrArg (· * x2 (ix2 j i)) ?_
  have hi := i.isLt; have hr := r.isLt
  show shapeCast S512x1024 (mixed x0 x1) shapeCasts_S512x16x64_S512x1024 (ix2 r i) = _
  refine (shapeCast_apply _ _ (ix2 r i) (ix3 r (hd i) (dm i)) (by
    rw [Shape.rowMajor_val_two, Shape.rowMajor_val_three]
    show (r.val * 16 + i.val / 64) * 64 + i.val % 64 = r.val * 1024 + i.val
    omega)).trans ?_
  exact mixed_at x0 x1 r (hd i) (dm i)

/-- So the body's stored value, entry by entry, is the row function of the block's rows. -/
theorem payload_at (r : Fin 512) (j : Fin 1024) :
    k0_pay1 (F := Ideal) x0 x1 x2 x3 (ix2 r j)
      = rowOut (fun k => x0 (ix2 r k)) (blocked x1 0) (blocked x1 1) (blocked x1 2) (fun j i => x2 (ix2 j i))
          (fun j => x3 (ix2 (0 : Fin 1) j)) j := by
  rw [payload_eq]
  exact result_at x0 x1 x2 x3 r j

end Cert.KernelIdeal.BlockRow

end
-- ==== Proof.HostArrays.lean ====
/-
  What the region is launched on: the four arrays the host lines before it write, read at an index.

  The flattened input: row `M` of the 16384 × 1024 array is row (M / 2048, M % 2048) of the 8 × 2048 × 1024 input.
  The regrouped weights: a literal table of 3072 row numbers sends row `1024 o + 64 h + d` to row `192 h + 64 o + d`
  (the table is compared with that formula entry by entry, 24 runs of 128), the guard for negative row numbers picks
  the table itself (its condition is the constant false), the gather reads the table's entry as a signed number
  clamped into 0 … 3071 — already there — and takes the whole row; the change of float format is the identity. The
  second matrix only changes format. The bias becomes a matrix of one row.
-/
import proofs.«102548_j77781857730894_2_alg».proof.Proof.Gen.KernelIdeal.Frame
import proofs.«102548_j77781857730894_2_alg».proof.Proof.HeadMix
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostArrays

open Cert.KernelIdeal Cert.KernelIdeal.Gen Cert.HeadMix
open Idealize.ShloMosaic Idealize.ShloMosaic.TcCoe Idealize.SL.Sem Idealize.ShloMosaic.StableHlo Idealize.ShloMosaic.ValueIdx

/-! ## The table of row numbers -/

/-- Entry `128 a + b` of the table, read as a signed number and clamped into 0 … 3071, is the row the regrouping
    formula names. -/
theorem table_runs : ∀ (a : Fin 24) (b : Fin 128),
    min (lit0t (a.val * 128 + b.val)).toInt.toNat 3071
      = (a.val * 128 + b.val) % 1024 / 64 * 192 + (a.val * 128 + b.val) / 1024 * 64 + (a.val * 128 + b.val) % 64 := by
  decide +kernel

theorem table_eq (f : Fin 3072) : min (lit0 f).toInt.toNat (3072 - 1) = (perm f).val := by
  obtain ⟨i, hi⟩ := f
  show min (lit0t i).toInt.toNat 3071 = i % 1024 / 64 * 192 + i / 1024 * 64 + i % 64
  have h := table_runs ⟨i / 128, by omega⟩ ⟨i % 128, by omega⟩
  have e : (⟨i / 128, by omega⟩ : Fin 24).val * 128 + (⟨i % 128, by omega⟩ : Fin 128).val = i := by
    show i / 128 * 128 + i % 128 = i
    omega
  rw [e] at h
  exact h

/-! ## A gather of whole rows -/

/-- The column of row numbers the gather reads. -/
def rowIdx : IVec S3072x1 32 :=
  broadcastInDim S3072x1 ![0] bcast_S3072_S3072x1_0
    (select (constantI S3072 1 0#1)
      (addi (fun i => lit0 (S3072.rowMajor i)) (broadcastInDim S3072 ![] bcast_S_S3072 (constantI S_ 32 3072#32)))
      (fun i => lit0 (S3072.rowMajor i)))

/-- Its entry `f` is the table's: the guard's condition is false everywhere. -/
theorem rowIdx_at (f : Fin 3072) (u : Fin 1) : rowIdx (ix2 f u) = lit0 f := by
  unfold rowIdx
  refine (broadcastInDim_apply _ bcast_S3072_S3072x1_0 _ (ix2 f u) (ix1 f) (fun a => by
    match a with
    | ⟨0, _⟩ => show f.val = if (3072 : Nat) = 1 then 0 else f.val; rw [if_neg (by decide)])).trans ?_
  show Scalar.select 0#1 _ (lit0 (S3072.rowMajor (ix1 f))) = _
  rw [select_zero]
  exact congrArg lit0 (Fin.ext (Shape.rowMajor_val_one (ix1 f)))

/-- The gather at (f, k): the operand at the row the index column names (read signed, clamped), column `k`. -/
theorem gather_rows_apply {α : Type} (x : S3072x1024.Idx → α) (idx : IVec S3072x1 32) (f : Fin 3072) (k : Fin 1024) :
    Host.gather gather_S3072x1024_S3072x1_S3072x1024_1_0_n_n_0_1_11024 x idx (ix2 f k)
      = x (ix2 ⟨min (idx (ix2 f (0 : Fin 1))).toInt.toNat (3072 - 1), by omega⟩ k) := by
  unfold Host.gather
  congr 1
  funext a
  refine Fin.ext ?_
  match a with
  | ⟨0, _⟩ =>
    show gather_S3072x1024_S3072x1_S3072x1024_1_0_n_n_0_1_11024.start (ix2 f k) idx 0 + gather_S3072x1024_S3072x1_S3072x1024_1_0_n_n_0_1_11024.batchCoord (ix2 f k) 0 + gather_S3072x1024_S3072x1_S3072x1024_1_0_n_n_0_1_11024.offCoord (ix2 f k) 0 = _
    rw [GatherDims.batchCoord_eq_zero _ _ _ (by decide : (0 : Fin S3072x1024.rank) ∉ gather_S3072x1024_S3072x1_S3072x1024_1_0_n_n_0_1_11024.operandBatchingDims),
      GatherDims.offCoord_eq_zero _ _ _ (by decide : (0 : Fin S3072x1024.rank) ∉ gather_S3072x1024_S3072x1_S3072x1024_1_0_n_n_0_1_11024.sKept)]
    simp only [Nat.add_zero]
    unfold GatherDims.start
    rw [dif_pos (show (0 : Fin S3072x1024.rank) ∈ gather_S3072x1024_S3072x1_S3072x1024_1_0_n_n_0_1_11024.startIndexMap by decide)]
    have hsi : gather_S3072x1024_S3072x1_S3072x1024_1_0_n_n_0_1_11024.siIdx (ix2 f k) ⟨List.idxOf (0 : Fin S3072x1024.rank) gather_S3072x1024_S3072x1_S3072x1024_1_0_n_n_0_1_11024.startIndexMap,
        List.idxOf_lt_length_iff.2 (by decide)⟩ = ix2 f (0 : Fin 1) := by
      funext b; refine Fin.ext ?_
      match b with
      | ⟨0, _⟩ => rfl
      | ⟨1, _⟩ => rfl
    rw [hsi]
    rfl
  | ⟨1, _⟩ =>
    show gather_S3072x1024_S3072x1_S3072x1024_1_0_n_n_0_1_11024.start (ix2 f k) idx 1 + gather_S3072x1024_S3072x1_S3072x1024_1_0_n_n_0_1_11024.batchCoord (ix2 f k) 1 + gather_S3072x1024_S3072x1_S3072x1024_1_0_n_n_0_1_11024.offCoord (ix2 f k) 1 = k.val
    rw [GatherDims.batchCoord_eq_zero _ _ _ (by decide : (1 : Fin S3072x1024.rank) ∉ gather_S3072x1024_S3072x1_S3072x1024_1_0_n_n_0_1_11024.operandBatchingDims)]
    unfold GatherDims.start
    rw [dif_neg (show ¬(1 : Fin S3072x1024.rank) ∈ gather_S3072x1024_S3072x1_S3072x1024_1_0_n_n_0_1_11024.startIndexMap by decide)]
    unfold GatherDims.offCoord
    rw [dif_pos (show (1 : Fin S3072x1024.rank) ∈ gather_S3072x1024_S3072x1_S3072x1024_1_0_n_n_0_1_11024.sKept by decide)]
    show 0 + 0 + k.val = k.val
    omega

/-! ## The four arrays -/

variable (m : (ℓ : Loc nD τ sig) → Buf (Elt Ideal) ℓ) (c : Dev nD)

/-- The flattened input at (M, k). -/
theorem flat_at (M : Fin 16384) (k : Fin 1024) :
    (V m c main_v0 : S16384x1024.Idx → EReal) (ix2 M k)
      = (m ((c.tc : Thread nD τ).loc main_arg0) : S8x2048x1024.Idx → EReal)
          (ix3 ⟨M.val / 2048, by have := M.isLt; omega⟩ ⟨M.val % 2048, by omega⟩ k) := by
  have e : (V m c main_v0 : S16384x1024.Idx → EReal)
      = shapeCast S16384x1024 (m ((c.tc : Thread nD τ).loc main_arg0) : S8x2048x1024.Idx → EReal)
          shapeCasts_S8x2048x1024_S16384x1024 := by
    show StableHlo.after (hostOps0 (F := Ideal)) (fun b => m (c, b)) (Proc.devRef .tc main_v0) = _
    after_results <;> rfl
  refine (congrFun e (ix2 M k)).trans ?_
  have hM := M.isLt; have hk := k.isLt
  exact shapeCast_apply (s := S8x2048x1024) (t := S16384x1024) _ _ _ _ (by
    show (S8x2048x1024.rowMajor (ix3 ⟨M.val / 2048, by omega⟩ ⟨M.val % 2048, by omega⟩ k)).val = (S16384x1024.rowMajor (ix2 M k)).val
    rw [Shape.rowMajor_val_three, Shape.rowMajor_val_two]
    show (M.val / 2048 * 2048 + M.val % 2048) * 1024 + k.val = M.val * 1024 + k.val
    omega)

/-- The regrouped weights at (f, k): row `perm f` of the argument. -/
theorem regrouped_at (f : Fin 3072) (k : Fin 1024) :
    (V m c main_v6 : S3072x1024.Idx → EReal) (ix2 f k)
      = (m ((c.tc : Thread nD τ).loc main_arg1) : S3072x1024.Idx → EReal) (ix2 (perm f) k) := by
  have e : (V m c main_v6 : S3072x1024.Idx → EReal)
      = truncf .bf16 (Host.gather gather_S3072x1024_S3072x1_S3072x1024_1_0_n_n_0_1_11024 (m ((c.tc : Thread nD τ).loc main_arg1) : FVec Ideal S3072x1024 .f32) rowIdx
          : FVec Ideal S3072x1024 .f32) bitsLt_bf16_f32 := by
    show StableHlo.after (hostOps0 (F := Ideal)) (fun b => m (c, b)) (Proc.devRef .tc main_v6) = _
    after_results <;> rfl
  refine (congrFun e (ix2 f k)).trans ?_
  show Host.gather gather_S3072x1024_S3072x1_S3072x1024_1_0_n_n_0_1_11024 (m ((c.tc : Thread nD τ).loc main_arg1) : FVec Ideal S3072x1024 .f32) rowIdx (ix2 f k) = _
  rw [gather_rows_apply]
  exact congrArg (fun g => (m ((c.tc : Thread nD τ).loc main_arg1) : S3072x1024.Idx → EReal) (ix2 g k)) (Fin.ext (by
    show min (rowIdx (ix2 f (0 : Fin 1))).toInt.toNat (3072 - 1) = _
    rw [rowIdx_at]
    exact table_eq f))

/-- The second matrix: the argument itself. -/
theorem second_at (i : S1024x1024.Idx) :
    (V m c main_v7 : S1024x1024.Idx → EReal) i = (m ((c.tc : Thread nD τ).loc main_arg2) : S1024x1024.Idx → EReal) i := by
  have e : @Eq (S1024x1024.Idx → EReal) (V m c main_v7)
      (truncf (F := Ideal) (s := S1024x1024) .bf16 (m ((c.tc : Thread nD τ).loc main_arg2) : FVec Ideal S1024x1024 .f32) bitsLt_bf16_f32) := by
    show StableHlo.after (hostOps0 (F := Ideal)) (fun b => m (c, b)) (Proc.devRef .tc main_v7) = _
    after_results <;> rfl
  exact congrFun e i

/-- The bias row at (0, j). -/
theorem bias_at (u : Fin 1) (j : Fin 1024) :
    (V m c main_v8 : S1x1024.Idx → EReal) (ix2 u j) = (m ((c.tc : Thread nD τ).loc main_arg3) : S1024.Idx → EReal) (ix1 j) := by
  have e : (V m c main_v8 : S1x1024.Idx → EReal)
      = shapeCast S1x1024 (m ((c.tc : Thread nD τ).loc main_arg3) : S1024.Idx → EReal) shapeCasts_S1024_S1x1024 := by
    show StableHlo.after (hostOps0 (F := Ideal)) (fun b => m (c, b)) (Proc.devRef .tc main_v8) = _
    after_results <;> rfl
  refine (congrFun e (ix2 u j)).trans ?_
  exact shapeCast_a_1a_apply _ _ u j

end Cert.KernelIdeal.HostArrays

end
-- ==== Proof.WholeRun.lean ====
/-
  The idealized kernel's whole run: its result is the row function applied row by row.

  Grid point `t` stages rows 512 t … 512 t + 511 of the flattened input and of the flattened result, and the whole
  of the other three arrays; what it writes back is, entry by entry, the row function of its rows of the input (the
  body, `BlockRow`) — and the arrays it was launched on are the argument arrays re-laid (`HostArrays`): row `M` of the
  flattened input is row (M / 2048, M % 2048) of the argument, the regrouped weights' blocked families are the
  argument's interleaved ones. The 32 blocks of 512 rows tile the 16384 rows, so the flattened result array ends
  holding one function of the arguments; the host line after the region regroups its rows as 8 × 2048.
-/
import proofs.«102548_j77781857730894_2_alg».proof.Proof.Gen.KernelIdeal.Frame
import proofs.«102548_j77781857730894_2_alg».proof.Proof.HeadMix
import proofs.«102548_j77781857730894_2_alg».proof.Proof.BlockRow
import proofs.«102548_j77781857730894_2_alg».proof.Proof.HostArrays
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen Cert.HeadMix
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The argument arrays of core `c`, as functions of an index. -/
abbrev aX (c : Dev nD) : S8x2048x1024.Idx → EReal := m ((c.tc : Thread nD τ).loc main_arg0)
abbrev aW (c : Dev nD) : S3072x1024.Idx → EReal := m ((c.tc : Thread nD τ).loc main_arg1)
abbrev aP (c : Dev nD) : S1024x1024.Idx → EReal := m ((c.tc : Thread nD τ).loc main_arg2)
abbrev aB (c : Dev nD) : S1024.Idx → EReal := m ((c.tc : Thread nD τ).loc main_arg3)

/-- Output feature `j` of the row function on row (b, n) of the input. -/
def rowAt (c : Dev nD) (b : Fin 8) (n : Fin 2048) (j : Fin 1024) : EReal :=
  rowOut (fun k => aX m c (ix3 b n k)) (interleaved (aW m c) 0) (interleaved (aW m c) 1) (interleaved (aW m c) 2)
    (fun j i => aP m c (ix2 j i)) (fun j => aB m c (ix1 j)) j

/-- The flattened result: row `M` is row (M / 2048, M % 2048). -/
def flatG (c : Dev nD) : S16384x1024.Idx → EReal := fun i =>
  rowAt m c ⟨(i 0).val / 2048, by have : (i 0).val < 16384 := (i 0).isLt; omega⟩ ⟨(i 0).val % 2048, by omega⟩ (i 1)

/-- The result: entry (b, n, j) is output feature `j` of row (b, n). -/
def resG (c : Dev nD) : S8x2048x1024.Idx → EReal := fun i => rowAt m c (i 0) (i 1) (i 2)

/-! ## The index maps, decided over the grid -/

theorem hz : (![0, 0] : Fin 2 → Nat) = fun _ => 0 := funext fun a => by fin_cases a <;> rfl

/-- The input's and the result's blocks move down one block of rows per point; the other three stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := Nat.lt_of_lt_of_eq t.isLt N_0

/-! ## The staged blocks, read where they lie in their arrays -/

theorem blk0_at (c : Dev nD) (t : Fin cfg0.N) (r : Fin 512) (k : Fin 1024) :
    iblk m c 0 t (ix2 r k)
      = (V m c main_v0 : S16384x1024.Idx → EReal) (ix2 ⟨t.val * 512 + r.val, by have := point_lt t; omega⟩ k) := by
  obtain ⟨e00, e01, -⟩ := idx_facts t
  show (V m c main_v0 : S16384x1024.Idx → EReal) (((cfg0.win 0).blk t).view.emb (ix2 r k)) = _
  refine congrArg (V m c main_v0 : S16384x1024.Idx → EReal) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

theorem blk1_at (c : Dev nD) (t : Fin cfg0.N) (f : Fin 3072) (k : Fin 1024) :
    iblk m c 1 t (ix2 f k) = (V m c main_v6 : S3072x1024.Idx → EReal) (ix2 f k) := by
  obtain ⟨-, -, e10, e11, -⟩ := idx_facts t
  show (V m c main_v6 : S3072x1024.Idx → EReal) (((cfg0.win 1).blk t).view.emb (ix2 f k)) = _
  refine congrArg (V m c main_v6 : S3072x1024.Idx → EReal) (funext fun a => Fin.ext ?_)
  match a with
  | ⟨0, _⟩ => show win0_1.index t (0 : Fin 2) * 3072 + 1 * f.val = f.val; omega
  | ⟨1, _⟩ => show win0_1.index t (1 : Fin 2) * 1024 + 1 * k.val = k.val; omega

theorem blk2_at (c : Dev nD) (t : Fin cfg0.N) (j i : Fin 1024) :
    iblk m c 2 t (ix2 j i) = (V m c main_v7 : S1024x1024.Idx → EReal) (ix2 j i) := by
  obtain ⟨-, -, -, -, e20, e21, -⟩ := idx_facts t
  show (V m c main_v7 : S1024x1024.Idx → EReal) (((cfg0.win 2).blk t).view.emb (ix2 j i)) = _
  refine congrArg (V m c main_v7 : S1024x1024.Idx → EReal) (funext fun a => Fin.ext ?_)
  match a with
  | ⟨0, _⟩ => show win0_2.index t (0 : Fin 2) * 1024 + 1 * j.val = j.val; omega
  | ⟨1, _⟩ => show win0_2.index t (1 : Fin 2) * 1024 + 1 * i.val = i.val; omega

theorem blk3_at (c : Dev nD) (t : Fin cfg0.N) (u : Fin 1) (j : Fin 1024) :
    iblk m c 3 t (ix2 u j) = (V m c main_v8 : S1x1024.Idx → EReal) (ix2 u j) := by
  obtain ⟨-, -, -, -, -, -, e30, e31, -⟩ := idx_facts t
  show (V m c main_v8 : S1x1024.Idx → EReal) (((cfg0.win 3).blk t).view.emb (ix2 u j)) = _
  refine congrArg (V m c main_v8 : S1x1024.Idx → EReal) (funext fun a => Fin.ext ?_)
  match a with
  | ⟨0, _⟩ => show win0_3.index t (0 : Fin 2) * 1 + 1 * u.val = u.val; omega
  | ⟨1, _⟩ => show win0_3.index t (1 : Fin 2) * 1024 + 1 * j.val = j.val; omega

/-! ## What a point writes back -/

/-- Point `t` writes back block `t` of the flattened result. -/
theorem flushed_eq (c : Dev nD) (t : Fin cfg0.N) :
    (dats m 0 c).flushed 4 t = ((cfg0.win 4).blk t).view.read (Elt Ideal) (flatG m c) := by
  show (cfg0.win 4).cut (grid0.coords t) ((dats m 0 c).after 4 t) = _
  rw [after0_4]
  unfold out0_4
  rw [View.canon_unit_zero hz]
  simp only [View.ld_unit_zero (S := S512x1024) hz, View.ld_unit_zero (S := S3072x1024) hz,
    View.ld_unit_zero (S := S1024x1024) hz, View.ld_unit_zero (S := S1x1024) hz]
  obtain ⟨-, -, -, -, -, -, -, -, e40, e41⟩ := idx_facts t
  have ht := point_lt t
  funext y
  obtain ⟨r, j, rfl⟩ : ∃ (r : Fin 512) (j : Fin 1024), y = ix2 r j := ⟨y 0, y 1, eq_ix2 y⟩
  show k0_pay1 (F := Ideal) (iblk m c 0 t) (iblk m c 1 t) (iblk m c 2 t) (iblk m c 3 t) (ix2 r j)
    = flatG m c (((cfg0.win 4).blk t).view.emb (ix2 r j))
  refine (BlockRow.payload_at (iblk m c 0 t) (iblk m c 1 t) (iblk m c 2 t) (iblk m c 3 t) r j).trans ?_
  -- the block's rows of the arrays the region was launched on are rows of the arguments
  have hx : (fun k => iblk m c 0 t (ix2 r k))
      = fun k => aX m c (ix3 ⟨(t.val * 512 + r.val) / 2048, by omega⟩ ⟨(t.val * 512 + r.val) % 2048, by omega⟩ k) :=
    funext fun k => (blk0_at m c t r k).trans (HostArrays.flat_at m c ⟨t.val * 512 + r.val, by omega⟩ k)
  have hw : ∀ o : Fin 3, blocked (iblk m c 1 t) o = interleaved (aW m c) o := fun o =>
    blocked_of_perm (aW m c) (iblk m c 1 t) (fun f k => (blk1_at m c t f k).trans (HostArrays.regrouped_at m c f k)) o
  have hp : (fun j i => iblk m c 2 t (ix2 j i)) = fun j i => aP m c (ix2 j i) :=
    funext fun j => funext fun i => (blk2_at m c t j i).trans (HostArrays.second_at m c (ix2 j i))
  have hb : (fun j => iblk m c 3 t (ix2 (0 : Fin 1) j)) = fun j => aB m c (ix1 j) :=
    funext fun j => (blk3_at m c t 0 j).trans (HostArrays.bias_at m c 0 j)
  rw [hx, hw 0, hw 1, hw 2, hp, hb]
  -- and the block's row `r` is row `512 t + r` of the flattened result
  unfold flatG rowAt
  have e0 : ((((cfg0.win 4).blk t).view.emb (ix2 r j)) 0).val = t.val * 512 + r.val := by
    show win0_4.index t (0 : Fin 2) * 512 + 1 * r.val = _; omega
  have e1 : (((cfg0.win 4).blk t).view.emb (ix2 r j)) 1 = j := Fin.ext (by
    show win0_4.index t (1 : Fin 2) * 1024 + 1 * j.val = j.val; omega)
  have eb : (⟨((((cfg0.win 4).blk t).view.emb (ix2 r j)) 0).val / 2048, by omega⟩ : Fin 8)
      = ⟨(t.val * 512 + r.val) / 2048, by omega⟩ := Fin.ext (by show _ / 2048 = _ / 2048; rw [e0])
  have en : (⟨((((cfg0.win 4).blk t).view.emb (ix2 r j)) 0).val % 2048, by omega⟩ : Fin 2048)
      = ⟨(t.val * 512 + r.val) % 2048, by omega⟩ := Fin.ext (by show _ % 2048 = _ % 2048; rw [e0])
  rw [eb, en, e1]

/-! ## The blocks tile the array -/

theorem mem_blk (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v9).slice (win0_4.rect t)).set ↔ _
  rw [View.set_slice_whole, Rect.mem_set_unit]
  exact Iff.rfl

/-- Row `M` is in the block of point `M / 512`. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : (i 0).val / 512 < cfg0.N := Nat.lt_of_lt_of_eq (by omega : (i 0).val / 512 < 32) N_0.symm
  refine ⟨⟨(i 0).val / 512, hN⟩, flush0_4 _, ?_⟩
  rw [mem_blk]
  obtain ⟨-, -, -, -, -, -, -, -, e40, e41⟩ := idx_facts ⟨(i 0).val / 512, hN⟩
  have e40' : win0_4.index ⟨(i 0).val / 512, hN⟩ (0 : Fin 2) = (i 0).val / 512 := e40
  intro a
  match a with
  | ⟨0, _⟩ =>
    show win0_4.index ⟨(i 0).val / 512, hN⟩ (0 : Fin 2) * 512 ≤ (i 0).val
      ∧ (i 0).val < win0_4.index ⟨(i 0).val / 512, hN⟩ (0 : Fin 2) * 512 + 512
    omega
  | ⟨1, _⟩ =>
    show win0_4.index ⟨(i 0).val / 512, hN⟩ (1 : Fin 2) * 1024 ≤ (i 1).val
      ∧ (i 1).val < win0_4.index ⟨(i 0).val / 512, hN⟩ (1 : Fin 2) * 1024 + 1024
    omega

/-- THE FLATTENED RESULT ARRAY after the region. -/
theorem final (c : Dev nD) : (dats m 0 c).arrAt 4 cfg0.N = flatG m c :=
  (dats m 0 c).arrAt_eq_of_cover 4 (flatG m c) (fun t _ => flushed_eq m c t) cover

/-! ## The host line after the region -/

/-- Regrouping the 16384 rows as 8 × 2048 gives the result. -/
theorem regroup (c : Dev nD) :
    shapeCast S8x2048x1024 (flatG m c) shapeCasts_S16384x1024_S8x2048x1024 = resG m c := by
  funext i
  obtain ⟨b, n, j, rfl⟩ : ∃ (b : Fin 8) (n : Fin 2048) (j : Fin 1024), i = ix3 b n j := ⟨i 0, i 1, i 2, eq_ix3 i⟩
  have hb := b.isLt; have hn := n.isLt
  refine (shapeCast_apply (s := S16384x1024) (t := S8x2048x1024) _ _ (ix3 b n j)
    (ix2 ⟨b.val * 2048 + n.val, by omega⟩ j) (by
      rw [Shape.rowMajor_val_two, Shape.rowMajor_val_three]
      show (b.val * 2048 + n.val) * 1024 + j.val = (b.val * 2048 + n.val) * 1024 + j.val
      rfl)).trans ?_
  unfold flatG resG
  have eb : (⟨(b.val * 2048 + n.val) / 2048, by omega⟩ : Fin 8) = b := Fin.ext (by show (b.val * 2048 + n.val) / 2048 = b.val; omega)
  have en : (⟨(b.val * 2048 + n.val) % 2048, by omega⟩ : Fin 2048) = n := Fin.ext (by show (b.val * 2048 + n.val) % 2048 = n.val; omega)
  show rowAt m c ⟨(b.val * 2048 + n.val) / 2048, by omega⟩ ⟨(b.val * 2048 + n.val) % 2048, by omega⟩ j = rowAt m c b n j
  rw [eb, en]

/-! ## The run -/

/-- The host line after the region, applied to the arrays the region leaves, gives the result. -/
theorem tail_eq (c : Dev nD) :
    @Eq (S8x2048x1024.Idx → EReal) (Pipeline.afterTail₀ cfgs (dats m) 0 (V0 m) [hostOps1] c main_v10) (resG m c) := by
  have hA : Pipeline.withArrays spec0 c (V0 m c) (fun w => (dats m 0 c).arrAt w cfg0.N) (Proc.devRef .tc main_v9) = flatG m c :=
    (Pipeline.withArrays_arr spec0 launch0.win.arr_inj c _ _ 4).trans (final m c)
  unfold Pipeline.afterTail₀
  show StableHlo.after (hostOps1 (F := Ideal)) _ (Proc.devRef .tc main_v10) = _
  after_results
  refine Eq.trans ?_ (regroup m c)
  rw [← hA]
  rfl

/-- THE IDEALIZED KERNEL'S RUN: every weakly fair execution terminates with the result array at `resG` of the
    arguments — entry (b, n, j) the row function's output `j` on row (b, n) — and the arguments unchanged. -/
theorem run : θ_run defs (onTc (τ := τ) (main (F := Ideal))) ⟨m, fun _ => 0, ρ⟩ (fun r => ∀ c : Dev nD,
      r.2.mem ((c.tc : Thread nD τ).loc main_v10) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Whole

end
-- ==== Proof.lean ====
/-
  The kernel fuses, per block of 512 token rows, a projection onto 16 heads (three families of 64 coordinates
  each), a softmax attention of the 16 heads of ONE token over one another, and an output projection with a bias;
  the reference computes the same with whole-array operations. At the ideal instance both results are one function
  of the four argument arrays: entry (b, n, j) is `HeadMix.rowOut` of row (b, n) of the input, the weight matrix's
  rows read in their interleaved head layout, the second matrix's rows and the bias, at output feature `j`.

  The reference: its chain of whole-array operations read at an index, stage by stage (Proof/RefRow.lean over the
  generated run and read modules). The kernel: the body's stored value at an index (Proof/BlockRow.lean), the arrays
  the host lines before the region write — the input flattened, the weight rows permuted by a literal table into
  three contiguous blocks, two changes of float format that are the identity here (Proof/HostArrays.lean) —, the
  32 blocks of rows tiling the flattened result and the regrouping after the region (Proof/WholeRun.lean). The two
  sides meet with no algebra beyond re-indexing finite sums: the same products, the same maximum from −∞, the same
  quotients, in the same places; finiteness of the inputs is never used.

  The three frames are the generated ones (the reference's is its generated run with the result dropped); the ideal
  pass rewrote nothing, so there is nothing to preserve.
-/
import proofs.«102548_j77781857730894_2_alg».proof.Defs
import proofs.«102548_j77781857730894_2_alg».proof.Proof.Gen.Kernel
import proofs.«102548_j77781857730894_2_alg».proof.Proof.Gen.Kernel.Skeleton
import proofs.«102548_j77781857730894_2_alg».proof.Proof.Gen.Kernel.Launch
import proofs.«102548_j77781857730894_2_alg».proof.Proof.Gen.Kernel.Points
import proofs.«102548_j77781857730894_2_alg».proof.Proof.Gen.Kernel.Frame
import proofs.«102548_j77781857730894_2_alg».proof.Proof.Gen.KernelIdeal
import proofs.«102548_j77781857730894_2_alg».proof.Proof.Gen.KernelIdeal.Skeleton
import proofs.«102548_j77781857730894_2_alg».proof.Proof.Gen.KernelIdeal.Launch
import proofs.«102548_j77781857730894_2_alg».proof.Proof.Gen.KernelIdeal.Points
import proofs.«102548_j77781857730894_2_alg».proof.Proof.Gen.KernelIdeal.Frame
import proofs.«102548_j77781857730894_2_alg».proof.Proof.Gen.ReferenceIdeal
import proofs.«102548_j77781857730894_2_alg».proof.Proof.Gen.Pre_finite_inputs
import proofs.«102548_j77781857730894_2_alg».proof.Proof.Gen.ReferenceIdeal.Run
import proofs.«102548_j77781857730894_2_alg».proof.Proof.Gen.ReferenceIdeal.Read
import proofs.«102548_j77781857730894_2_alg».proof.Proof.HeadMix
import proofs.«102548_j77781857730894_2_alg».proof.Proof.RefRow
import proofs.«102548_j77781857730894_2_alg».proof.Proof.WholeRun
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the row function applied to every row of the input: the kernel by its whole run, the
    reference by its run read at an index, the arguments agreeing. -/
theorem algebraic : Cert.algebraic_KernelIdeal_ReferenceIdeal := by
  intro m ρ m' ρ' _ hagree
  refine ⟨fun c => Cert.KernelIdeal.Whole.resG m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  funext i
  obtain ⟨b, n, j, rfl⟩ : ∃ (b : Fin 8) (n : Fin 2048) (j : Fin 1024), i = ix3 b n j := ⟨i 0, i 1, i 2, eq_ix3 i⟩
  exact Cert.ReferenceIdeal.RefRow.result_at _ _ _ _ b n j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
